-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S64x128 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩

abbrev nBuf : Space → Nat
  | .hbm => 40
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x64, .f32⟩
  | .hbm, ⟨39, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S64x128_S10000x64_1_1_0_0_n_n_wf : DotDims.WF S10000x128 S64x128 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«173315_j22110491640592_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«173315_j22110491640592_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«173315_j22110491640592_1_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.Block.lean ====
/-
  The kernel's body on one block of rows, as one function of the three blocks it loads: the features' block times the
  weights read transposed, plus the one-row bias laid along every row.
-/
import proofs.«173315_j22110491640592_1_alg».proof.Proof.Gen.KernelIdeal.Skeleton
import proofs.«173315_j22110491640592_1_alg».proof.Proof.LibTransposed

noncomputable section

namespace Cert.KernelIdeal.Block

open Cert.KernelIdeal Cert.KernelIdeal.Gen Idealize.ShloMosaic Idealize.ShloMosaic.ValueIdx
open Cert.TransposedLib Cert.RowBlocks

/-- What the body stores for a block of 10000 rows `x0` of the propagated features, the weights `x1` (one row per
    output feature) and the bias row `x2`: entry `(p, q)` is `∑ k, x0 (p, k) · x1 (q, k) + x2 (0, q)`. The two
    narrowings to bf16 are the identity on the extended reals and the accumulator starts at zero. -/
theorem payload (x0 : Vec Ideal S10000x128 .f32) (x1 : Vec Ideal S64x128 .f32) (x2 : Vec Ideal S1x64 .f32) :
    k0_pay1 (F := Ideal) x0 x1 x2 = affine (M := 10000) x0 (tr x1) (fun c => x2 (ix2 (0 : Fin 1) c)) :=
  unit_affine_transposed dot_S10000x128_S64x128_S10000x64_1_1_0_0_n_n rfl x0 x1 x2 _ _ _ _ _

end Cert.KernelIdeal.Block

end
-- ==== Proof.Whole.lean ====
/-
  From blocks to the array. The grid has ten points; point `t` reads rows `10000 t … 10000 t + 9999` of the propagated
  features, the whole weight matrix and the whole bias row, and writes back rows `10000 t … 10000 t + 9999` of the
  result. An entry of the layer depends on one row of the features only, so what point `t` writes back is block `t` of
  the layer applied to the WHOLE feature array; the ten blocks cover the result, which is therefore that one function.
  Everything about one point is stated over arbitrary arrays and blocks, and only then read at the arrays the region finds.
-/
import proofs.«173315_j22110491640592_1_alg».proof.Proof.Gen.KernelIdeal.Value
import proofs.«173315_j22110491640592_1_alg».proof.Proof.Block

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.TransposedLib Cert.RowBlocks

theorem origin : (![0, 0] : Fin 2 → Nat) = fun _ => 0 := funext fun a => by fin_cases a <;> rfl

/-- The index maps over the grid: the features' and the result's windows move down one block of rows per point, the
    weights' and the bias' stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer of a feature array `H`, weights `W` (one row per output feature) and a bias row `v`: entry `(r, q)` is
    the sum over `k` of `H (r, k) · W (q, k)`, plus `v (0, q)`. -/
def layer (H : S100000x128.Idx → EReal) (W : S64x128.Idx → EReal) (v : S1x64.Idx → EReal) : S100000x64.Idx → EReal :=
  affine (M := 100000) H (tr W) (fun q => v (ix2 (0 : Fin 1) q))

theorem layer_congr {H H' : S100000x128.Idx → EReal} {W W' : S64x128.Idx → EReal} {v v' : S1x64.Idx → EReal}
    (hH : H = H') (hW : W = W') (hv : v = v') : layer H W v = layer H' W' v' := by
  subst hH hW hv; rfl

/-! ## One point, over arbitrary arrays -/

/-- Entry `y` of point `t`'s block of a feature array is its entry `(10000 t + y 0, y 1)`. -/
theorem read_rows (A : S100000x128.Idx → EReal) (t : Fin cfg0.N) (y : S10000x128.Idx) (i : S100000x128.Idx)
    (h0 : (i 0).val = t.val * 10000 + (y 0).val) (h1 : (i 1).val = (y 1).val) :
    (((cfg0.win 0).blk t).view.read (Elt Ideal) A : Vec Ideal S10000x128 .f32) y = A i := by
  obtain ⟨e0, e1, -⟩ := index_facts t
  rw [View.read_apply]
  refine congrArg A (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- Every point's block of the weight matrix is the whole matrix. -/
theorem read_weights (A : S64x128.Idx → EReal) (t : Fin cfg0.N) :
    (((cfg0.win 1).blk t).view.read (Elt Ideal) A : Vec Ideal S64x128 .f32) = A := by
  obtain ⟨-, -, e0, e1, -⟩ := index_facts t
  funext y
  rw [View.read_apply]
  refine congrArg A (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- Every point's block of the bias row is the whole row. -/
theorem read_bias (A : S1x64.Idx → EReal) (t : Fin cfg0.N) :
    (((cfg0.win 2).blk t).view.read (Elt Ideal) A : Vec Ideal S1x64 .f32) = A := by
  obtain ⟨-, -, -, -, e0, e1, -⟩ := index_facts t
  funext y
  rw [View.read_apply]
  refine congrArg A (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The layer on a block of rows is that block of the layer on the whole array: entry `j` of the layer applied to rows
    `10000 n …` of `H` is entry `(10000 n + j 0, j 1)` of the layer applied to `H`. -/
theorem block_of_layer (H : S100000x128.Idx → EReal) (W : S64x128.Idx → EReal) (v : S1x64.Idx → EReal)
    (x0 : Vec Ideal S10000x128 .f32) (n : ℕ) (j : S10000x64.Idx) (i : S100000x64.Idx)
    (h0 : (i 0).val = n * 10000 + (j 0).val) (h1 : (i 1).val = (j 1).val)
    (hx : ∀ (y : S10000x128.Idx) (z : S100000x128.Idx), (z 0).val = n * 10000 + (y 0).val → (z 1).val = (y 1).val → x0 y = H z) :
    affine (M := 10000) x0 (tr W) (fun q => v (ix2 (0 : Fin 1) q)) j = layer H W v i :=
  affine_eq_of_row _ _ _ _ _ _ j i rfl rfl h1.symm fun k => hx _ _ h0 rfl

/-- What the body leaves for the result's window at point `t`, from blocks `x0`, `x1`, `x2` that are point `t`'s blocks
    of arrays `H`, `W`, `v`, read through the window: block `t` of the layer of `H`, `W`, `v`. -/
theorem point_eq (H : S100000x128.Idx → EReal) (W : S64x128.Idx → EReal) (v : S1x64.Idx → EReal) (t : Fin cfg0.N)
    (x0 : Vec Ideal S10000x128 .f32) (x1 : Vec Ideal S64x128 .f32) (x2 : Vec Ideal S1x64 .f32)
    (hx0 : ∀ (y : S10000x128.Idx) (z : S100000x128.Idx), (z 0).val = t.val * 10000 + (y 0).val → (z 1).val = (y 1).val → x0 y = H z)
    (hx1 : x1 = W) (hx2 : x2 = v) :
    (cfg0.win 3).cut (grid0.coords t) (out0_3 (F := Ideal) x0 x1 x2)
      = ((cfg0.win 3).blk t).view.read (Elt Ideal) (layer H W v) := by
  subst hx1 hx2
  unfold out0_3
  rw [View.canon_unit_zero origin]
  simp only [View.ld_unit_zero (S := S10000x128) origin, View.ld_unit_zero (S := S64x128) origin,
    View.ld_unit_zero (S := S1x64) origin]
  rw [Block.payload]
  obtain ⟨-, -, -, -, -, -, e0, e1⟩ := index_facts t
  funext j
  show affine (M := 10000) x0 (tr x1) (fun q => x2 (ix2 (0 : Fin 1) q)) j
    = layer H x1 x2 (((cfg0.win 3).blk t).view.emb j)
  refine block_of_layer H x1 x2 x0 t.val j _ ?_ ?_ hx0
  · show win0_3.index t (0 : Fin 2) * 10000 + 1 * (j 0).val = t.val * 10000 + (j 0).val
    rw [e0]; omega
  · show win0_3.index t (1 : Fin 2) * 64 + 1 * (j 1).val = (j 1).val
    rw [e1]; omega

/-! ## The cover -/

/-- An index of the result is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v27).slice (win0_3.rect t)).set ↔ _
  rw [View.set_slice_whole, Rect.mem_set_unit]
  exact Iff.rfl

/-- Row `r` of the result is written back by point `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, e0, e1⟩ := index_facts ⟨(i 0).val / 10000, ht⟩
  refine ⟨⟨(i 0).val / 10000, ht⟩, flush0_3 _, ?_⟩
  rw [mem_block]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e1]
    omega

/-! ## The array after the run -/

variable (m : (ℓ : Loc nD τ sig) → Buf (Elt Ideal) ℓ) (ρ : Dev nD → PrngReg)

/-- The layer of the arrays as the region finds them: the propagated features, the weights, the bias row. -/
def result (c : Dev nD) : S100000x64.Idx → EReal :=
  layer (V m c main_v25) (V m c main_arg4) (V m c main_v26)

/-- What point `t` writes back is block `t` of `result`. -/
theorem flushed_eq (c : Dev nD) (t : Fin cfg0.N) :
    (dats m 0 c).flushed 3 t = ((cfg0.win 3).blk t).view.read (Elt Ideal) (result m c) := by
  rw [Value.flushed3]
  exact point_eq (V m c main_v25) (V m c main_arg4) (V m c main_v26) t (iblk m c 0 t) (iblk m c 1 t) (iblk m c 2 t)
    (fun y z h0 h1 => read_rows (V m c main_v25) t y z h0 h1) (read_weights (V m c main_arg4) t) (read_bias (V m c main_v26) t)

/-- So the result array ends holding `result`. -/
theorem final (c : Dev nD) : (dats m 0 c).arrAt 3 cfg0.N = result m c :=
  (dats m 0 c).arrAt_eq_of_cover 3 (result m c) (fun t _ => flushed_eq m c t) cover

/-- The run, read: the result array at the layer of the arrays the region finds, the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Entry.lean ====
/-
  What the region finds in the two arrays the host wrote before it: the propagated features (two hops of gather,
  scaling by the edge weight and scatter-add over the destination node) and the bias recast as one row. The host
  operations that compute the features are the reference's own, operation for operation, so the features are the
  reference's term for them and are never opened.
-/
import proofs.«173315_j22110491640592_1_alg».proof.Proof.Gen.KernelIdeal.Frame
import proofs.«173315_j22110491640592_1_alg».proof.Proof.Gen.ReferenceIdeal.Read

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The bias row at region entry: the bias vector recast as a `[1, 64]` array. -/
theorem bias_row (c : Dev nD) :
    (V m c main_v26 : S1x64.Idx → Elt F .f32)
      = shapeCast S1x64 (m ((c : Thread nD τ).loc main_arg5)) shapeCasts_S64_S1x64 := by
  dsimp only [V, hostOps0]
  after_results
  rfl

/-- The propagated features at region entry: the reference's own two hops of the argument arrays. -/
theorem features (c : Dev nD) :
    (V m c main_v25 : S100000x128.Idx → Elt F .f32)
      = Cert.ReferenceIdeal.Read.val_main_v25 (F := F) (m ((c : Thread nD τ).loc main_arg0))
          (m ((c : Thread nD τ).loc main_arg1)) (m ((c : Thread nD τ).loc main_arg2)) (m ((c : Thread nD τ).loc main_arg3)) := by
  dsimp only [V, hostOps0]
  after_results_simp
  rfl

end Cert.KernelIdeal.Entry

end
-- ==== Proof.Bridge.lean ====
/-
  The two sides are one function. At the extended reals the kernel's result array is the layer `H · Wᵀ + b` of the
  arrays the region finds (the propagated features `H`, the weights as launched, the bias recast as a row); the
  reference's result is a plain product of `H` with the transposed weights plus the bias broadcast in two steps.
  Both are `affine H (tr W) b`: only the commutative, associative reading of sums and products is used, so no
  finiteness of the inputs is needed.
-/
import proofs.«173315_j22110491640592_1_alg».proof.Proof.Whole
import proofs.«173315_j22110491640592_1_alg».proof.Proof.Entry

noncomputable section

namespace Cert.Bridge

open Idealize.ShloMosaic Idealize.ShloMosaic.TcCoe Idealize.SL.Sem Idealize.ShloMosaic.ValueIdx
open Cert.LayoutLib Cert.DenseLib Cert.RowBlocks Cert.TransposedLib

/-- The reference's result is the layer of its own propagated features: the host's general dot with the transposed
    weights is the plain product with the weights read transposed, and the bias broadcast to one row and then down
    the rows lays it along every row. -/
theorem reference_eq (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S64x128, .f32⟩ : BufTy).Contents (Elt Ideal))
    (x5 : (⟨Cert.ReferenceIdeal.S64, .f32⟩ : BufTy).Contents (Elt Ideal)) :
    Cert.ReferenceIdeal.Read.val_main_v30 (F := Ideal) x0 x1 x2 x3 x4 x5
      = affine (M := 100000) (Cert.ReferenceIdeal.Read.val_main_v25 (F := Ideal) x0 x1 x2 x3)
          (tr (x4 : (⟨2, ![64, 128]⟩ : Shape).Idx → EReal)) (fun q => (x5 : (⟨1, ![64]⟩ : Shape).Idx → EReal) (ix1 q)) := by
  unfold Cert.ReferenceIdeal.Read.val_main_v30 Cert.ReferenceIdeal.Read.val_main_v27 Cert.ReferenceIdeal.Read.val_main_v29
    Cert.ReferenceIdeal.Read.val_main_v28 Cert.ReferenceIdeal.Read.val_main_v26
  generalize Cert.ReferenceIdeal.Read.val_main_v25 (F := Ideal) x0 x1 x2 x3 = H
  rw [dotGeneral_eq_mm Cert.ReferenceIdeal.dot_S100000x128_S128x64_S100000x64_1_0_0_1_n_n rfl, transpose_eq_tr,
    broadcastInDim_eq_rows]
  rfl

open Cert.KernelIdeal Cert.KernelIdeal.Gen in
/-- The kernel's result is the same layer of the reference's term for the propagated features: the region finds the
    features at that term, the weights as launched, and the bias row at the bias vector recast. -/
theorem kernel_eq (m : (ℓ : Loc nD τ sig) → Buf (Elt Ideal) ℓ) (c : Dev nD) :
    Cert.KernelIdeal.Whole.result m c
      = affine (M := 100000) (Cert.ReferenceIdeal.Read.val_main_v25 (F := Ideal) (m ((c.tc : Thread nD τ).loc main_arg0))
            (m ((c.tc : Thread nD τ).loc main_arg1)) (m ((c.tc : Thread nD τ).loc main_arg2)) (m ((c.tc : Thread nD τ).loc main_arg3)))
          (tr (m ((c.tc : Thread nD τ).loc main_arg4) : (⟨2, ![64, 128]⟩ : Shape).Idx → EReal))
          (fun q => (m ((c.tc : Thread nD τ).loc main_arg5) : (⟨1, ![64]⟩ : Shape).Idx → EReal) (ix1 q)) := by
  unfold Cert.KernelIdeal.Whole.result
  refine (Cert.KernelIdeal.Whole.layer_congr (Cert.KernelIdeal.Entry.features m c) (V_main_arg4 m c)
    (Cert.KernelIdeal.Entry.bias_row m c)).trans ?_
  unfold Cert.KernelIdeal.Whole.layer
  exact congrArg (affine _ _) (funext fun q => shapeCast_vecRow_apply _ _ (0 : Fin 1) q)

end Cert.Bridge

end
-- ==== Proof.lean ====
/-
  The certificate of a two-hop graph propagation followed by a dense layer. Both programs propagate the node
  features with the same host operations (twice: gather the source rows, scale by the edge weight, scatter-add into
  the destination rows); the kernel then applies the layer `H · Wᵀ + b` block by block (ten blocks of 10000 rows,
  the weights kept with one row per output feature, operands narrowed to bf16, which is the identity on the
  extended reals), the reference as one product with the transposed weights plus the broadcast bias.
  The frames of the two kernel programs are the generated ones; the reference's frame is its generated run with the
  result dropped; nothing was rewritten by the idealization, so `preserves` is trivial; `algebraic` sets the kernel's
  result array (`Whole.run`: the blocks cover the array and each is a block of ONE function, because an entry of the
  layer depends on one row of the features) beside the reference's run, both equal to `affine H (tr W) b` (`Bridge`).
-/
import proofs.«173315_j22110491640592_1_alg».proof.Defs
import proofs.«173315_j22110491640592_1_alg».proof.Proof.Gen.Kernel
import proofs.«173315_j22110491640592_1_alg».proof.Proof.Gen.Kernel.Skeleton
import proofs.«173315_j22110491640592_1_alg».proof.Proof.Gen.Kernel.Launch
import proofs.«173315_j22110491640592_1_alg».proof.Proof.Gen.Kernel.Points
import proofs.«173315_j22110491640592_1_alg».proof.Proof.Gen.Kernel.Frame
import proofs.«173315_j22110491640592_1_alg».proof.Proof.Gen.KernelIdeal
import proofs.«173315_j22110491640592_1_alg».proof.Proof.Gen.KernelIdeal.Skeleton
import proofs.«173315_j22110491640592_1_alg».proof.Proof.Gen.KernelIdeal.Launch
import proofs.«173315_j22110491640592_1_alg».proof.Proof.Gen.KernelIdeal.Points
import proofs.«173315_j22110491640592_1_alg».proof.Proof.Gen.KernelIdeal.Frame
import proofs.«173315_j22110491640592_1_alg».proof.Proof.Gen.ReferenceIdeal
import proofs.«173315_j22110491640592_1_alg».proof.Proof.Gen.KernelIdeal.Value
import proofs.«173315_j22110491640592_1_alg».proof.Proof.Gen.ReferenceIdeal.Run
import proofs.«173315_j22110491640592_1_alg».proof.Proof.Gen.ReferenceIdeal.Read
import proofs.«173315_j22110491640592_1_alg».proof.Proof.Gen.Pre_finite_inputs
import proofs.«173315_j22110491640592_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at the layer of the arrays its region
    finds and the reference's at its last stage; both are the layer `affine H (tr W) b` of the reference's propagated
    features `H`, the launched weights `W` and bias `b`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Bridge.reference_eq, (hagree c).1, (hagree c).2.1, (hagree c).2.2.1,
    (hagree c).2.2.2.1, (hagree c).2.2.2.2.1, (hagree c).2.2.2.2.2]
  exact (Cert.Bridge.kernel_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
